-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S10000x64 : Shape := ⟨2, ![10000, 64]⟩
abbrev S1600000x64 : Shape := ⟨2, ![1600000, 64]⟩
abbrev S10000x1 : Shape := ⟨2, ![10000, 1]⟩

abbrev nBuf : Space → Nat
  | .hbm => 98
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S1x64, .f32⟩
  | .hbm, ⟨23, _⟩ => ⟨S1x64, .f32⟩
  | .hbm, ⟨24, _⟩ => ⟨S100000x64, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000, .f32⟩
  | .hbm, ⟨80, _⟩ => ⟨S1600000, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S1600000x1, .f32⟩
  | .hbm, ⟨91, _⟩ => ⟨S1600000x64, .f32⟩
  | .hbm, ⟨92, _⟩ => ⟨S1600000x64, .f32⟩
  | .hbm, ⟨93, _⟩ => ⟨S_, .f32⟩
  | .hbm, ⟨94, _⟩ => ⟨S100000x64, .f32⟩
  | .hbm, ⟨95, _⟩ => ⟨S1600000x1, .i32⟩
  | .hbm, ⟨96, _⟩ => ⟨S100000x64, .f32⟩
  | .hbm, ⟨97, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_c_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S100000x64.size a
  hwx1_4 : ∀ i : grid1.Coords, EltTy.bits .f32 = 32 ∨ (Rect.block (s := S100000x64) S10000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x64.size a ≤ S100000x64.size a
  hwx3_4 : ∀ i : grid3.Coords, EltTy.bits .f32 = 32 ∨ (Rect.block (s := S100000x64) S10000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S10000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x1, .f32⟩
  | .hbm, ⟨50, _⟩ => ⟨S1600000x64, .f32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S100000, .f32⟩
  | .hbm, ⟨57, _⟩ => ⟨S100000x1, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | .hbm, ⟨64, _⟩ => ⟨S_, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | .hbm, ⟨121, _⟩ => ⟨S_, .f32⟩
  | .hbm, ⟨122, _⟩ => ⟨S100000x64, .f32⟩
  | .hbm, ⟨123, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_v93 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibDenseSteps.lean ====
/-
  The dense steps of a two-layer graph convolution, entry by entry on the extended reals.

  * `prod x w`: the product of an [a, n] matrix with an [n, b] matrix; entry (p, e) is the sum over k of
    x(p, k) * w(k, e). The matrix unit's product into a zero accumulator and the host's general product
    contracting axis 1 with axis 0 are both this function, whatever float formats hold the operands.
  * `biasRelu g β`: a length-n vector β added along every row of an [a, n] matrix g, then the larger of the
    sum and zero, entry by entry: max (g(p, e) + β(e), 0).
  * `addRow g β`: the same without the maximum: g(p, e) + β(e).
  Each is proved equal to the spelling a kernel body gives it on a block of rows (the vector given as a one-row
  matrix and repeated down the rows) and to the spelling of the host program (the vector laid along axis 1 of a
  one-row matrix, then repeated along axis 0). No finiteness is used: only the definitions of the operations.
-/
import Idealize.ShloMosaic.PureOps.Ideal.Laws
import Idealize.ShloMosaic.Lib.ValueIdx
import Idealize.ShloMosaic.Lib.ValueLayout
import Idealize.ShloMosaic.Lib.Pipeline.Value
import proofs.«114300_j71605694759283_1_alg».proof.Proof.LibColsMatmul

noncomputable section

namespace Cert.Layers

open Idealize.ShloMosaic Idealize.ShloMosaic.ValueIdx Cert.ColsMatmul

variable {a n b : ℕ}

/-- The matrix product: entry (p, e) is the sum over k of x(p, k) * w(k, e). -/
def prod (x : (⟨2, ![a, n]⟩ : Shape).Idx → EReal) (w : (⟨2, ![n, b]⟩ : Shape).Idx → EReal) :
    (⟨2, ![a, b]⟩ : Shape).Idx → EReal :=
  fun i => ∑ k : Fin n, x (ix2 (i 0) k) * w (ix2 k (i 1))

theorem prod_apply (x : (⟨2, ![a, n]⟩ : Shape).Idx → EReal) (w : (⟨2, ![n, b]⟩ : Shape).Idx → EReal) (p : Fin a) (e : Fin b) :
    prod x w (ix2 p e) = ∑ k : Fin n, x (ix2 p k) * w (ix2 k e) := rfl

/-- A one-row matrix β added along every row of g, then the larger of the sum and zero. -/
def biasReluRow (g : (⟨2, ![a, n]⟩ : Shape).Idx → EReal) (β : (⟨2, ![1, n]⟩ : Shape).Idx → EReal) :
    (⟨2, ![a, n]⟩ : Shape).Idx → EReal :=
  fun i => max (g i + β (ix2 (0 : Fin 1) (i 1))) (Ideal.ofBits .f32 0x00000000#32)

/-- A vector β added along every row of g, then the larger of the sum and zero. -/
def biasRelu (g : (⟨2, ![a, n]⟩ : Shape).Idx → EReal) (β : (⟨1, ![n]⟩ : Shape).Idx → EReal) :
    (⟨2, ![a, n]⟩ : Shape).Idx → EReal :=
  fun i => max (g i + β (ix1 (i 1))) (Ideal.ofBits .f32 0x00000000#32)

/-- A one-row matrix β added along every row of g. -/
def addRowRow (g : (⟨2, ![a, n]⟩ : Shape).Idx → EReal) (β : (⟨2, ![1, n]⟩ : Shape).Idx → EReal) :
    (⟨2, ![a, n]⟩ : Shape).Idx → EReal :=
  fun i => g i + β (ix2 (0 : Fin 1) (i 1))

/-- A vector β added along every row of g. -/
def addRow (g : (⟨2, ![a, n]⟩ : Shape).Idx → EReal) (β : (⟨1, ![n]⟩ : Shape).Idx → EReal) :
    (⟨2, ![a, n]⟩ : Shape).Idx → EReal :=
  fun i => g i + β (ix1 (i 1))

/-- An entry of a product depends on one row of the left factor and one column of the right factor. -/
theorem prod_congr {a' b' : ℕ} (x : (⟨2, ![a, n]⟩ : Shape).Idx → EReal) (w : (⟨2, ![n, b]⟩ : Shape).Idx → EReal)
    (x' : (⟨2, ![a', n]⟩ : Shape).Idx → EReal) (w' : (⟨2, ![n, b']⟩ : Shape).Idx → EReal)
    (i : (⟨2, ![a, b]⟩ : Shape).Idx) (i' : (⟨2, ![a', b']⟩ : Shape).Idx)
    (hx : ∀ k : Fin n, x (ix2 (i 0) k) = x' (ix2 (i' 0) k)) (hw : ∀ k : Fin n, w (ix2 k (i 1)) = w' (ix2 k (i' 1))) :
    prod x w i = prod x' w' i' :=
  Finset.sum_congr rfl fun k _ => by rw [hx k, hw k]

/-- An entry of the rectified sum depends on that entry of the matrix and that entry of the row. -/
theorem biasReluRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal) (p : Fin a) (p' : Fin a') (k : Fin n)
    (hg : g (ix2 p k) = g' (ix2 p' k)) (hβ : β (ix2 (0 : Fin 1) k) = β' (ix2 (0 : Fin 1) k)) :
    biasReluRow g β (ix2 p k) = biasReluRow g' β' (ix2 p' k) := by
  show max (g (ix2 p k) + β (ix2 (0 : Fin 1) k)) _ = max (g' (ix2 p' k) + β' (ix2 (0 : Fin 1) k)) _
  rw [hg, hβ]

/-- An entry of the sum with a row depends on that entry of the matrix and that entry of the row. -/
theorem addRowRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal)
    (i : (⟨2, ![a, n]⟩ : Shape).Idx) (i' : (⟨2, ![a', n]⟩ : Shape).Idx)
    (hg : g i = g' i') (hβ : β (ix2 (0 : Fin 1) (i 1)) = β' (ix2 (0 : Fin 1) (i' 1))) :
    addRowRow g β i = addRowRow g' β' i' := by
  show g i + β (ix2 (0 : Fin 1) (i 1)) = g' i' + β' (ix2 (0 : Fin 1) (i' 1))
  rw [hg, hβ]

/-! ## The two products -/

variable (wf : DotDims.WF ⟨2, ![a, n]⟩ ⟨2, ![n, b]⟩ ⟨2, ![a, b]⟩ [1] [0] [0] [1] [] [])

/-- The matrix unit's product of an [a, n] and an [n, b] operand into the zero accumulator is `prod`. -/
theorem matmul_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    FloatOps.matmul d none x w (constant ⟨2, ![a, b]⟩ .f32 0x00000000#32) = prod x w := by
  funext i
  obtain ⟨p, e, rfl⟩ : ∃ (p : Fin a) (e : Fin b), i = ix2 p e := ⟨i 0, i 1, eq_ix2 i⟩
  exact cols_matmul wf d hd x w p e

/-- The host's general product contracting axis 1 of the left operand with axis 0 of the right is `prod`. -/
theorem dotGeneral_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    Host.dotGeneral d none x w = prod x w := by
  subst hd
  funext i
  obtain ⟨p, e, rfl⟩ : ∃ (p : Fin a) (e : Fin b), i = ix2 p e := ⟨i 0, i 1, eq_ix2 i⟩
  exact (Ideal.dotGeneral_apply (colsDims wf) none .single x w (ix2 p e)).trans (contraction_cols wf x w p e)

/-! ## A vector along the rows -/

/-- A vector seen as a one-row matrix reads its entry e at (0, e). -/
theorem row_of_vector (β : (⟨1, ![n]⟩ : Shape).Idx → EReal) (h : (⟨1, ![n]⟩ : Shape).ShapeCasts ⟨2, ![1, n]⟩) (e : Fin n) :
    shapeCast ⟨2, ![1, n]⟩ β h (ix2 (0 : Fin 1) e) = β (ix1 e) :=
  shapeCast_a_1a_apply β h (0 : Fin 1) e

theorem biasReluRow_row (g : (⟨2, ![a, n]⟩ : Shape).Idx → EReal) (β : (⟨1, ![n]⟩ : Shape).Idx → EReal)
    (h : (⟨1, ![n]⟩ : Shape).ShapeCasts ⟨2, ![1, n]⟩) :
    biasReluRow g (shapeCast ⟨2, ![1, n]⟩ β h) = biasRelu g β := by
  funext i
  obtain ⟨p, e, rfl⟩ : ∃ (p : Fin a) (e : Fin n), i = ix2 p e := ⟨i 0, i 1, eq_ix2 i⟩
  show max (g (ix2 p e) + shapeCast ⟨2, ![1, n]⟩ β h (ix2 (0 : Fin 1) e)) (Ideal.ofBits .f32 0x00000000#32)
    = max (g (ix2 p e) + β (ix1 e)) (Ideal.ofBits .f32 0x00000000#32)
  rw [row_of_vector]

theorem addRowRow_row (g : (⟨2, ![a, n]⟩ : Shape).Idx → EReal) (β : (⟨1, ![n]⟩ : Shape).Idx → EReal)
    (h : (⟨1, ![n]⟩ : Shape).ShapeCasts ⟨2, ![1, n]⟩) :
    addRowRow g (shapeCast ⟨2, ![1, n]⟩ β h) = addRow g β := by
  funext i
  obtain ⟨p, e, rfl⟩ : ∃ (p : Fin a) (e : Fin n), i = ix2 p e := ⟨i 0, i 1, eq_ix2 i⟩
  show g (ix2 p e) + shapeCast ⟨2, ![1, n]⟩ β h (ix2 (0 : Fin 1) e) = g (ix2 p e) + β (ix1 e)
  rw [row_of_vector]

/-! ## The kernel's vector spelling, on a block of rows -/

/-- A block g and a one-row block β: β repeated down the rows, added, and the maximum with a zero splat. -/
theorem kernel_biasRelu (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    maximumf (addf (shapeCast ⟨2, ![a, n]⟩ g hg) (broadcastTo ⟨2, ![a, n]⟩ (shapeCast ⟨2, ![1, n]⟩ β hβ) hb))
        (broadcast ⟨2, ![a, n]⟩ (Scalar.ofBits (F := Ideal) .f32 0x00000000#32))
      = biasReluRow g β := by
  rw [shapeCast_self, shapeCast_self]
  funext i
  obtain ⟨p, e, rfl⟩ : ∃ (p : Fin a) (e : Fin n), i = ix2 p e := ⟨i 0, i 1, eq_ix2 i⟩
  show max (g (ix2 p e) + broadcastTo ⟨2, ![a, n]⟩ β hb (ix2 p e)) (Ideal.ofBits .f32 0x00000000#32) = _
  rw [broadcastTo_1b_ab_apply]
  rfl

/-- The same without the maximum. -/
theorem kernel_addRow (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    addf (shapeCast ⟨2, ![a, n]⟩ g hg) (broadcastTo ⟨2, ![a, n]⟩ (shapeCast ⟨2, ![1, n]⟩ β hβ) hb) = addRowRow g β := by
  rw [shapeCast_self, shapeCast_self]
  funext i
  obtain ⟨p, e, rfl⟩ : ∃ (p : Fin a) (e : Fin n), i = ix2 p e := ⟨i 0, i 1, eq_ix2 i⟩
  show g (ix2 p e) + broadcastTo ⟨2, ![a, n]⟩ β hb (ix2 p e) = _
  rw [broadcastTo_1b_ab_apply]
  rfl

/-! ## The host's spelling -/

/-- The host lays a vector along axis 1 of a one-row matrix and repeats that along axis 0: at (p, e) it reads β(e). -/
theorem host_row (β : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (e : Fin n) :
    broadcastInDim ⟨2, ![a, n]⟩ ![0, 1] h2 (broadcastInDim ⟨2, ![1, n]⟩ ![1] h1 β) (ix2 p e) = β (ix1 e) := by
  rw [broadcastInDim_apply ![0, 1] h2 _ (ix2 p e) (ix2 (0 : Fin 1) e) (fun ax => by
    match ax with
    | ⟨0, _⟩ => rfl
    | ⟨1, _⟩ =>
      show e.val = if n = 1 then 0 else e.val
      split
      · have := e.isLt; omega
      · rfl)]
  exact broadcastInDim_apply ![1] h1 β (ix2 (0 : Fin 1) e) (ix1 e) (fun ax => by
    match ax with
    | ⟨0, _⟩ =>
      show e.val = if n = 1 then 0 else e.val
      split
      · have := e.isLt; omega
      · rfl)

/-- The host's sum with a vector along the rows. -/
theorem host_addRow (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) :
    addf g (broadcastInDim ⟨2, ![a, n]⟩ ![0, 1] h2 (broadcastInDim ⟨2, ![1, n]⟩ ![1] h1 β)) = addRow g β := by
  funext i
  obtain ⟨p, e, rfl⟩ : ∃ (p : Fin a) (e : Fin n), i = ix2 p e := ⟨i 0, i 1, eq_ix2 i⟩
  show g (ix2 p e) + broadcastInDim ⟨2, ![a, n]⟩ ![0, 1] h2 (broadcastInDim ⟨2, ![1, n]⟩ ![1] h1 β) (ix2 p e) = _
  rw [host_row]
  rfl

/-- The host's sum with a vector along the rows followed by the maximum with a zero splat. -/
theorem host_biasRelu (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) :
    maximumf (addf g (broadcastInDim ⟨2, ![a, n]⟩ ![0, 1] h2 (broadcastInDim ⟨2, ![1, n]⟩ ![1] h1 β)))
        (broadcastInDim ⟨2, ![a, n]⟩ ![] h0 (constant (F := Ideal) ⟨0, ![]⟩ .f32 0x00000000#32))
      = biasRelu g β := by
  rw [host_addRow]
  funext i
  show max (addRow g β i) (broadcastInDim ⟨2, ![a, n]⟩ ![] h0 (constant (F := Ideal) ⟨0, ![]⟩ .f32 0x00000000#32) i) = _
  rw [broadcastInDim_apply ![] h0 _ i ix0 (fun ax => ax.elim0)]
  rfl

end Cert.Layers

end
-- ==== Proof.LibGcnCombine.lean ====
/-
  One step of a graph convolution with symmetric normalisation, entry by entry on the extended reals.

  For a table of aggregated messages `agg`, a table of projected features `h` (both [a, n]), a one-column table
  `s` ([a, 1]: the squared inverse square root of each node's degree) and a one-row table `β` ([1, n]: the bias),
  the step is
      combine agg h s β (p, e) = max ((agg(p, e) + h(p, e) * s(p, 0)) + β(0, e), 0).
  It is proved equal to the spelling a kernel body gives it on a block of rows (the column repeated along the
  rows' entries, the row repeated down the rows, a zero splat) and to the spelling of a host program that starts
  from a length-a vector and a length-n vector (each laid along its axis of a one-column / one-row matrix, then
  repeated along the other axis). No finiteness is used: only the definitions of the operations.
-/
import Idealize.ShloMosaic.PureOps.Ideal.Laws
import Idealize.ShloMosaic.Lib.ValueIdx
import Idealize.ShloMosaic.Lib.ValueLayout
import Idealize.ShloMosaic.Lib.Pipeline.Value
import proofs.«114300_j71605694759283_1_alg».proof.Proof.LibDenseSteps

noncomputable section

namespace Cert.Gcn

open Idealize.ShloMosaic Idealize.ShloMosaic.ValueIdx Cert.Layers

variable {a n : ℕ}

/-! ## Layout: a column kept as [a, 1] -/

/-- An [a, 1] column repeated along the entries of each row reads, at (p, c), the column's entry p. -/
theorem broadcastTo_a1_ab_apply {α : Type} {b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A length-a vector seen as an [a, 1] column reads its entry p at (p, u). -/
theorem shapeCast_a_a1_apply {α : Type} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host lays a vector along axis 0 of a one-column matrix and repeats that along axis 1: at (p, e) it reads d(p). -/
theorem host_col {α : Type} (d : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, n]⟩ ![0, 1]) (p : Fin a) (e : Fin n) :
    broadcastInDim ⟨2, ![a, n]⟩ ![0, 1] h2 (broadcastInDim ⟨2, ![a, 1]⟩ ![0] h1 d) (ix2 p e) = d (ix1 p) := by
  rw [broadcastInDim_apply ![0, 1] h2 _ (ix2 p e) (ix2 p (0 : Fin 1)) (fun ax => by
    match ax with
    | ⟨0, _⟩ =>
      show p.val = if a = 1 then 0 else p.val
      split
      · have := p.isLt; omega
      · rfl
    | ⟨1, _⟩ => rfl)]
  exact broadcastInDim_apply ![0] h1 d (ix2 p (0 : Fin 1)) (ix1 p) (fun ax => by
    match ax with
    | ⟨0, _⟩ =>
      show p.val = if a = 1 then 0 else p.val
      split
      · have := p.isLt; omega
      · rfl)

/-! ## The step -/

/-- max ((agg + h * s(p)) + β(e), 0), entry by entry. -/
def combine (agg h : (⟨2, ![a, n]⟩ : Shape).Idx → EReal) (s : (⟨2, ![a, 1]⟩ : Shape).Idx → EReal)
    (β : (⟨2, ![1, n]⟩ : Shape).Idx → EReal) : (⟨2, ![a, n]⟩ : Shape).Idx → EReal :=
  fun i => max ((agg i + h i * s (ix2 (i 0) (0 : Fin 1))) + β (ix2 (0 : Fin 1) (i 1))) (Ideal.ofBits .f32 0x00000000#32)

theorem combine_apply (agg h : (⟨2, ![a, n]⟩ : Shape).Idx → EReal) (s : (⟨2, ![a, 1]⟩ : Shape).Idx → EReal)
    (β : (⟨2, ![1, n]⟩ : Shape).Idx → EReal) (p : Fin a) (e : Fin n) :
    combine agg h s β (ix2 p e)
      = max ((agg (ix2 p e) + h (ix2 p e) * s (ix2 p (0 : Fin 1))) + β (ix2 (0 : Fin 1) e)) (Ideal.ofBits .f32 0x00000000#32) := rfl

/-- An entry of the step depends on that entry of the two tables, that row's entry of the column and that
    column's entry of the row. -/
theorem combine_congr {a' : ℕ} (agg h : (⟨2, ![a, n]⟩ : Shape).Idx → EReal) (s : (⟨2, ![a, 1]⟩ : Shape).Idx → EReal)
    (β : (⟨2, ![1, n]⟩ : Shape).Idx → EReal)
    (agg' h' : (⟨2, ![a', n]⟩ : Shape).Idx → EReal) (s' : (⟨2, ![a', 1]⟩ : Shape).Idx → EReal)
    (β' : (⟨2, ![1, n]⟩ : Shape).Idx → EReal) (i : (⟨2, ![a, n]⟩ : Shape).Idx) (i' : (⟨2, ![a', n]⟩ : Shape).Idx)
    (hagg : agg i = agg' i') (hh : h i = h' i')
    (hs : s (ix2 (i 0) (0 : Fin 1)) = s' (ix2 (i' 0) (0 : Fin 1)))
    (hβ : β (ix2 (0 : Fin 1) (i 1)) = β' (ix2 (0 : Fin 1) (i' 1))) :
    combine agg h s β i = combine agg' h' s' β' i' := by
  show max ((agg i + h i * s (ix2 (i 0) (0 : Fin 1))) + β (ix2 (0 : Fin 1) (i 1))) _
    = max ((agg' i' + h' i' * s' (ix2 (i' 0) (0 : Fin 1))) + β' (ix2 (0 : Fin 1) (i' 1))) _
  rw [hagg, hh, hs, hβ]

/-- A block read from offsets (0, 0) is read from the start on both axes. -/
theorem zero_offsets : (![0, 0] : Fin 2 → Nat) = fun _ => 0 := funext fun a => by fin_cases a <;> rfl

/-- The kernel's vector spelling on a block of rows. -/
theorem kernel_combine (g h : FVec Ideal ⟨2, ![a, n]⟩ .f32) (s : FVec Ideal ⟨2, ![a, 1]⟩ .f32) (β : FVec Ideal ⟨2, ![1, n]⟩ .f32)
    (hg : (⟨2, ![a, n]⟩ : Shape).ShapeCasts ⟨2, ![a, n]⟩) (hs : (⟨2, ![a, 1]⟩ : Shape).ShapeCasts ⟨2, ![a, 1]⟩)
    (hβ : (⟨2, ![1, n]⟩ : Shape).ShapeCasts ⟨2, ![1, n]⟩)
    (hbs : (⟨2, ![a, 1]⟩ : Shape).Broadcasts ⟨2, ![a, n]⟩) (hbβ : (⟨2, ![1, n]⟩ : Shape).Broadcasts ⟨2, ![a, n]⟩) :
    maximumf (addf (addf (shapeCast ⟨2, ![a, n]⟩ g hg)
          (mulf (shapeCast ⟨2, ![a, n]⟩ h hg) (broadcastTo ⟨2, ![a, n]⟩ (shapeCast ⟨2, ![a, 1]⟩ s hs) hbs)))
        (broadcastTo ⟨2, ![a, n]⟩ (shapeCast ⟨2, ![1, n]⟩ β hβ) hbβ))
      (broadcast ⟨2, ![a, n]⟩ (Scalar.ofBits (F := Ideal) .f32 0x00000000#32))
      = combine g h s β := by
  rw [shapeCast_self, shapeCast_self, shapeCast_self, shapeCast_self]
  funext i
  obtain ⟨p, e, rfl⟩ : ∃ (p : Fin a) (e : Fin n), i = ix2 p e := ⟨i 0, i 1, eq_ix2 i⟩
  show max ((g (ix2 p e) + h (ix2 p e) * broadcastTo ⟨2, ![a, n]⟩ s hbs (ix2 p e)) + broadcastTo ⟨2, ![a, n]⟩ β hbβ (ix2 p e))
      (Ideal.ofBits .f32 0x00000000#32) = _
  rw [broadcastTo_1b_ab_apply, broadcastTo_a1_ab_apply]
  rfl

/-- The host's spelling, from a length-a vector d and a length-n vector β. -/
theorem host_combine (agg h : FVec Ideal ⟨2, ![a, n]⟩ .f32) (d : FVec Ideal ⟨1, ![a]⟩ .f32) (β : FVec Ideal ⟨1, ![n]⟩ .f32)
    (hc1 : (⟨1, ![a]⟩ : Shape).BroadcastsInDim ⟨2, ![a, 1]⟩ ![0])
    (hc2 : (⟨2, ![a, 1]⟩ : Shape).BroadcastsInDim ⟨2, ![a, n]⟩ ![0, 1])
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![])
    (hd : (⟨1, ![a]⟩ : Shape).ShapeCasts ⟨2, ![a, 1]⟩) (hβ : (⟨1, ![n]⟩ : Shape).ShapeCasts ⟨2, ![1, n]⟩) :
    maximumf (addf (addf agg
          (mulf h (broadcastInDim ⟨2, ![a, n]⟩ ![0, 1] hc2 (broadcastInDim ⟨2, ![a, 1]⟩ ![0] hc1 d))))
        (broadcastInDim ⟨2, ![a, n]⟩ ![0, 1] h2 (broadcastInDim ⟨2, ![1, n]⟩ ![1] h1 β)))
      (broadcastInDim ⟨2, ![a, n]⟩ ![] h0 (constant (F := Ideal) ⟨0, ![]⟩ .f32 0x00000000#32))
      = combine agg h (shapeCast ⟨2, ![a, 1]⟩ d hd) (shapeCast ⟨2, ![1, n]⟩ β hβ) := by
  funext i
  obtain ⟨p, e, rfl⟩ : ∃ (p : Fin a) (e : Fin n), i = ix2 p e := ⟨i 0, i 1, eq_ix2 i⟩
  rw [combine_apply, shapeCast_a_a1_apply, shapeCast_a_1a_apply]
  show max ((agg (ix2 p e) + h (ix2 p e)
        * broadcastInDim ⟨2, ![a, n]⟩ ![0, 1] hc2 (broadcastInDim ⟨2, ![a, 1]⟩ ![0] hc1 d) (ix2 p e))
        + broadcastInDim ⟨2, ![a, n]⟩ ![0, 1] h2 (broadcastInDim ⟨2, ![1, n]⟩ ![1] h1 β) (ix2 p e))
      (broadcastInDim ⟨2, ![a, n]⟩ ![] h0 (constant (F := Ideal) ⟨0, ![]⟩ .f32 0x00000000#32) (ix2 p e)) = _
  rw [host_col, host_row, broadcastInDim_apply ![] h0 _ (ix2 p e) ix0 (fun ax => ax.elim0)]
  rfl

end Cert.Gcn

end
-- ==== Proof.HostChain.lean ====
/-
  The message passing of the two programs as functions of whole arrays, and the reference's result.

  Both programs compute, per layer, from a table h of projected features ([100000, 64]) and the edge list
  ([2, 1600000]: row 0 the sources, row 1 the destinations):
    * `dinv`: one over the square root of (1 + the number of edges arriving at each node);
    * `agg h`: into each destination node, the sum over its incoming edges of the source's row of h times
      dinv(source) * dinv(destination);
  with the same host operations in the same order. They are named here once, and never opened: the two programs
  are compared with these functions applied to equal tables.
  The reference then takes max ((agg h + h * dinv²) + bias, 0), which is the step `combine` on the column of
  dinv² and the row of the bias; its product of a table with a weight matrix is `prod`.
-/
import proofs.«114300_j71605694759283_1_alg».proof.Proof.Gen.ReferenceIdeal.Run
import proofs.«114300_j71605694759283_1_alg».proof.Proof.LibGcnCombine

noncomputable section

namespace Cert.Gcn

open Idealize.ShloMosaic Idealize.ShloMosaic.TcCoe Idealize.SL.Sem Cert.ReferenceIdeal Cert.ReferenceIdeal.Gen Cert.Layers

abbrev Edges : Type := (⟨S2x1600000, .i32⟩ : BufTy).Contents (Elt Ideal)
abbrev Ends : Type := (⟨S1600000, .i32⟩ : BufTy).Contents (Elt Ideal)
abbrev Tab : Type := (⟨S100000x64, .f32⟩ : BufTy).Contents (Elt Ideal)
abbrev NodeVec : Type := (⟨S100000, .f32⟩ : BufTy).Contents (Elt Ideal)
abbrev Weights : Type := (⟨S64x64, .f32⟩ : BufTy).Contents (Elt Ideal)
abbrev Bias : Type := (⟨S64, .f32⟩ : BufTy).Contents (Elt Ideal)

/-- Row 0 of the edge list: each edge's source node. -/
def src (e : Edges) : Ends :=
  shapeCast _ (extractStridedSlice S1x1600000 ![0, 0] e slices_S2x1600000_S1x1600000_0_0) shapeCasts_S1x1600000_S1600000

/-- Row 1 of the edge list: each edge's destination node. -/
def dst (e : Edges) : Ends :=
  shapeCast _ (extractStridedSlice S1x1600000 ![1, 0] e slices_S2x1600000_S1x1600000_1_0) shapeCasts_S1x1600000_S1600000

/-- Node numbers as a column of start indices, a negative number counted from the end (jnp's indexing). -/
def startIdx (v : Ends) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- One over the square root of (the number of edges arriving at a node, plus one). -/
def dinv (d : Ends) : NodeVec :=
  Host.rsqrt (F := Ideal) (addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32)))

/-- Into each destination node, the sum over its incoming edges of the source's row of h times
    dv(source) * dv(destination). -/
def agg (h : Tab) (dv : NodeVec) (s d : Ends) : Tab :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (mulf (Host.gather gather_S100000x64_S1600000x1_S1600000x64_1_0_n_n_0_1_164 h (startIdx s))
      (broadcastInDim S1600000x64 ![0, 1] bcast_S1600000x1_S1600000x64_0_1
        (broadcastInDim S1600000x1 ![0] bcast_S1600000_S1600000x1_0
          (mulf (Host.gather gather_S100000_S1600000x1_S1600000_n_0_n_n_0_1_1 dv (startIdx s))
            (Host.gather gather_S100000_S1600000x1_S1600000_n_0_n_n_0_1_1 dv (startIdx d))))))

/-- One layer as the reference spells it, from the projected table h. -/
def layerRef (h : Tab) (e : Edges) (b : Bias) : Tab :=
  maximumf (addf (addf (agg h (dinv (dst e)) (src e) (dst e))
        (mulf h (broadcastInDim S100000x64 ![0, 1] bcast_S100000x1_S100000x64_0_1
          (broadcastInDim S100000x1 ![0] bcast_S100000_S100000x1_0 (mulf (dinv (dst e)) (dinv (dst e)))))))
      (broadcastInDim S100000x64 ![0, 1] bcast_S1x64_S100000x64_0_1 (broadcastInDim S1x64 ![1] bcast_S64_S1x64_1 b)))
    (broadcastInDim S100000x64 ![] bcast_S_S100000x64 (constant (F := Ideal) S_ .f32 0x00000000#32))

/-- The reference's result as it spells it. -/
def refOut (x : Tab) (e : Edges) (w1 : Weights) (b1 : Bias) (w2 : Weights) (b2 : Bias) : Tab :=
  layerRef (Host.dotGeneral (F := Ideal) (φ₁ := .f32) (φ₂ := .f32) dot_S100000x64_S64x64_S100000x64_1_0_0_1_n_n none
    (layerRef (Host.dotGeneral (F := Ideal) (φ₁ := .f32) (φ₂ := .f32) dot_S100000x64_S64x64_S100000x64_1_0_0_1_n_n none x w1) e b1) w2) e b2

set_option maxRecDepth 8192 in
/-- The composed term of the reference's run is `refOut` of the arguments. -/
theorem res_eq_refOut (m : (ℓ : Loc nD τ sig) → Buf (Elt Ideal) ℓ) (c : Dev nD) :
    Cert.ReferenceIdeal.Value.res_main_v93 (F := Ideal) m c
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v93 refOut layerRef agg dinv startIdx src dst
  rfl

/-! ## The same result over the entrywise functions -/

/-- The column of dinv² ([100000, 1]). -/
def scaleCol (e : Edges) : (⟨2, ![100000, 1]⟩ : Shape).Idx → EReal :=
  shapeCast ⟨2, ![100000, 1]⟩ (mulf (F := Ideal) (φ := .f32) (dinv (dst e)) (dinv (dst e)) : NodeVec) (show (⟨1, ![100000]⟩ : Shape).ShapeCasts ⟨2, ![100000, 1]⟩ from by decide)

/-- The bias as a row ([1, 64]). -/
def biasRow (b : Bias) : (⟨2, ![1, 64]⟩ : Shape).Idx → EReal :=
  shapeCast ⟨2, ![1, 64]⟩ b (show (⟨1, ![64]⟩ : Shape).ShapeCasts ⟨2, ![1, 64]⟩ from by decide)

/-- One layer from the projected table: the step on the aggregated messages, the table, the column and the row. -/
def layer (h : Tab) (e : Edges) (β : (⟨2, ![1, 64]⟩ : Shape).Idx → EReal) : Tab :=
  combine (a := 100000) (n := 64) (agg h (dinv (dst e)) (src e) (dst e)) h (scaleCol e) β

/-- The two layers, each a product with its weights and then the step. -/
def out (x : Tab) (e : Edges) (w1 : Weights) (b1 : Bias) (w2 : Weights) (b2 : Bias) : Tab :=
  layer (prod (a := 100000) (n := 64) (b := 64) (layer (prod (a := 100000) (n := 64) (b := 64) x w1) e (biasRow b1)) w2) e (biasRow b2)

theorem layerRef_eq (h : Tab) (e : Edges) (b : Bias) : layerRef h e b = layer h e (biasRow b) :=
  host_combine (a := 100000) (n := 64) (agg h (dinv (dst e)) (src e) (dst e)) h
    (mulf (F := Ideal) (φ := .f32) (dinv (dst e)) (dinv (dst e)) : NodeVec) b
    bcast_S100000_S100000x1_0 bcast_S100000x1_S100000x64_0_1 bcast_S64_S1x64_1 bcast_S1x64_S100000x64_0_1 bcast_S_S100000x64 _ _

theorem dot_eq_prod (x : Tab) (w : Weights) :
    Host.dotGeneral (F := Ideal) (φ₁ := .f32) (φ₂ := .f32) dot_S100000x64_S64x64_S100000x64_1_0_0_1_n_n none x w
      = prod (a := 100000) (n := 64) (b := 64) x w :=
  dotGeneral_eq_prod (a := 100000) (n := 64) (b := 64) dot_S100000x64_S64x64_S100000x64_1_0_0_1_n_n.wf
    dot_S100000x64_S64x64_S100000x64_1_0_0_1_n_n rfl x w

theorem refOut_eq (x : Tab) (e : Edges) (w1 : Weights) (b1 : Bias) (w2 : Weights) (b2 : Bias) :
    refOut x e w1 b1 w2 b2 = out x e w1 b1 w2 b2 := by
  unfold refOut out
  rw [layerRef_eq, layerRef_eq, dot_eq_prod, dot_eq_prod]

end Cert.Gcn

end
-- ==== Proof.KRun.lean ====
/-
  The idealized kernel's run with its result named.

  @main is seven segments: three stretches of host operations and four kernel launches. The buffer contents at
  each boundary are a fold from the launch memory: a stretch applies its operations, a launch replaces the arrays
  its windows are on by what its write-backs leave. Every weakly fair execution terminates with the result buffer
  at the last boundary's contents and the arguments as launched.
-/
import proofs.«114300_j71605694759283_1_alg».proof.Proof.Gen.KernelIdeal.Frame

set_option maxRecDepth 16384

noncomputable section

namespace Cert.Gcn.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and every argument array as launched. -/
theorem run_result : θ_run defs (onTc (τ := τ) (main (F := F))) ⟨m, fun _ => 0, ρ⟩ (fun r => ∀ c : Dev nD,
      r.2.mem ((c.tc : Thread nD τ).loc main_v74) = W7 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v74 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.Gcn.Kernel

end
-- ==== Proof.KHost.lean ====
/-
  The kernel program's host operations between its launches, as functions of the buffers they start from.

  Before the first launch the program slices the edge list into sources and destinations, counts the edges
  arriving at each node and takes dinv, and lays dinv² out as a column and each bias as a row. Between the first
  projection and the first update, and again between the second projection and the second update, it gathers the
  projected rows at the sources, scales them and sums them into the destinations. These are the operations the
  reference applies, in the same order, so each stretch is the shared function of the buffers it reads; every
  buffer a stretch does not write is as before.
-/
import proofs.«114300_j71605694759283_1_alg».proof.Proof.Gen.KernelIdeal.Launch
import proofs.«114300_j71605694759283_1_alg».proof.Proof.HostChain
import Idealize.ShloMosaic.Lib.StableHlo.Run

noncomputable section

namespace Cert.Gcn.Kernel

open Cert.KernelIdeal Cert.KernelIdeal.Gen Idealize.ShloMosaic Idealize.ShloMosaic.TcCoe Idealize.SL.Sem
open Idealize.ShloMosaic.StableHlo

variable (W : Valuation τ sig (Elt Ideal))

set_option maxHeartbeats 8000000 in
/-- The stretch before the first launch. -/
theorem stage0 :
    after (hostOps0 (F := Ideal)) W (Proc.devRef .tc main_v1) = src (W (Proc.devRef .tc main_arg1))
    ∧ after (hostOps0 (F := Ideal)) W (Proc.devRef .tc main_v3) = dst (W (Proc.devRef .tc main_arg1))
    ∧ after (hostOps0 (F := Ideal)) W (Proc.devRef .tc main_v10) = dinv (dst (W (Proc.devRef .tc main_arg1)))
    ∧ after (hostOps0 (F := Ideal)) W (Proc.devRef .tc main_v12) = scaleCol (W (Proc.devRef .tc main_arg1))
    ∧ after (hostOps0 (F := Ideal)) W (Proc.devRef .tc main_v13) = biasRow (W (Proc.devRef .tc main_arg3))
    ∧ after (hostOps0 (F := Ideal)) W (Proc.devRef .tc main_v14) = biasRow (W (Proc.devRef .tc main_arg5))
    ∧ after (hostOps0 (F := Ideal)) W (Proc.devRef .tc main_arg0) = W (Proc.devRef .tc main_arg0)
    ∧ after (hostOps0 (F := Ideal)) W (Proc.devRef .tc main_arg2) = W (Proc.devRef .tc main_arg2)
    ∧ after (hostOps0 (F := Ideal)) W (Proc.devRef .tc main_arg4) = W (Proc.devRef .tc main_arg4) := by
  refine ⟨?_, ?_, ?_, ?_, ?_, ?_, ?_, ?_, ?_⟩ <;> after_results <;> rfl

set_option maxHeartbeats 8000000 in
/-- The stretch between the first projection and the first update. -/
theorem stage1 :
    after (hostOps1 (F := Ideal)) W (Proc.devRef .tc main_v43)
      = agg (W (Proc.devRef .tc main_v15)) (W (Proc.devRef .tc main_v10)) (W (Proc.devRef .tc main_v1)) (W (Proc.devRef .tc main_v3))
    ∧ after (hostOps1 (F := Ideal)) W (Proc.devRef .tc main_v15) = W (Proc.devRef .tc main_v15)
    ∧ after (hostOps1 (F := Ideal)) W (Proc.devRef .tc main_v12) = W (Proc.devRef .tc main_v12)
    ∧ after (hostOps1 (F := Ideal)) W (Proc.devRef .tc main_v13) = W (Proc.devRef .tc main_v13)
    ∧ after (hostOps1 (F := Ideal)) W (Proc.devRef .tc main_v14) = W (Proc.devRef .tc main_v14)
    ∧ after (hostOps1 (F := Ideal)) W (Proc.devRef .tc main_v1) = W (Proc.devRef .tc main_v1)
    ∧ after (hostOps1 (F := Ideal)) W (Proc.devRef .tc main_v3) = W (Proc.devRef .tc main_v3)
    ∧ after (hostOps1 (F := Ideal)) W (Proc.devRef .tc main_v10) = W (Proc.devRef .tc main_v10)
    ∧ after (hostOps1 (F := Ideal)) W (Proc.devRef .tc main_arg4) = W (Proc.devRef .tc main_arg4) := by
  refine ⟨?_, ?_, ?_, ?_, ?_, ?_, ?_, ?_, ?_⟩ <;> after_results_simp <;> rfl

set_option maxHeartbeats 8000000 in
/-- The stretch between the second projection and the second update. -/
theorem stage3 :
    after (hostOps3 (F := Ideal)) W (Proc.devRef .tc main_v73)
      = agg (W (Proc.devRef .tc main_v45)) (W (Proc.devRef .tc main_v10)) (W (Proc.devRef .tc main_v1)) (W (Proc.devRef .tc main_v3))
    ∧ after (hostOps3 (F := Ideal)) W (Proc.devRef .tc main_v45) = W (Proc.devRef .tc main_v45)
    ∧ after (hostOps3 (F := Ideal)) W (Proc.devRef .tc main_v12) = W (Proc.devRef .tc main_v12)
    ∧ after (hostOps3 (F := Ideal)) W (Proc.devRef .tc main_v14) = W (Proc.devRef .tc main_v14) := by
  refine ⟨?_, ?_, ?_, ?_⟩ <;> after_results_simp <;> rfl

end Cert.Gcn.Kernel

end
-- ==== Proof.KRegion0.lean ====
/-
  What the first projection kernel leaves in its output array.

  The kernel runs on ten blocks of 10000 rows. At block t it multiplies rows 10000 t … 10000 t + 9999 of the table
  by the whole 64 x 64 weight matrix and writes the block back to the same rows. An entry (r, e) of the product
  depends on row r of the table and column e of the weights only, so each block written back is that block of the
  whole product, and the ten blocks cover the array: the output array ends as the product.
-/
import proofs.«114300_j71605694759283_1_alg».proof.Proof.Gen.KernelIdeal.Frame
import proofs.«114300_j71605694759283_1_alg».proof.Proof.LibGcnCombine
import Idealize.ShloMosaic.Lib.Pipeline.Value

noncomputable section

namespace Cert.Gcn.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Layers

variable (V : (c : Dev nD) → (b : Ref sig .tc) → Buf (Elt Ideal) ((c : Thread nD τ).loc b))

/-- The body's value: the product of the row block with the weights. -/
theorem body0 (x0 : Vec Ideal S10000x64 .f32) (x1 : Vec Ideal S64x64 .f32) :
    k0_pay1 (F := Ideal) x0 x1 = prod (a := 10000) (n := 64) (b := 64) x0 x1 :=
  matmul_eq_prod (a := 10000) (n := 64) (b := 64) dot_S10000x64_S64x64_S10000x64_1_0_0_1_n_n.wf
    dot_S10000x64_S64x64_S10000x64_1_0_0_1_n_n rfl x0 x1

/-- The block indices over the ten points: the table's and the output's row block is the point, every column
    block is 0, the weights' block is (0, 0). -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the whole arrays. -/
theorem flushed0 (c : Dev nD) (t : Fin cfg0.N) :
    (dat0 (F := Ideal) V c).flushed 2 t
      = ((cfg0.win 2).blk t).view.read (Elt Ideal)
          (prod (a := 100000) (n := 64) (b := 64) (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  rw [body0]
  obtain ⟨e0, e1, e2, e3, e4, e5⟩ := blocks0 t
  funext j
  show prod (a := 10000) (n := 64) (b := 64) (iblk0 V c 0 t) (iblk0 V c 1 t) j
    = prod (a := 100000) (n := 64) (b := 64) (V c (Pipeline.arrRef spec0 0)) (V c (Pipeline.arrRef spec0 1)) (((cfg0.win 2).blk t).view.emb j)
  refine prod_congr _ _ _ _ _ _ (fun k => ?_) (fun k => ?_)
  · show V c (Pipeline.arrRef spec0 0) (((cfg0.win 0).blk t).view.emb (ix2 (j 0) k))
      = V c (Pipeline.arrRef spec0 0) (ix2 (((cfg0.win 2).blk t).view.emb j 0) k)
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 64 + 1 * k.val = k.val
      omega
  · show V c (Pipeline.arrRef spec0 1) (((cfg0.win 1).blk t).view.emb (ix2 k (j 1)))
      = V c (Pipeline.arrRef spec0 1) (ix2 k (((cfg0.win 2).blk t).view.emb j 1))
    refine congrArg _ (funext fun a => Fin.ext ?_)
    match a with
    | ⟨0, _⟩ =>
      show win0_1.index t (0 : Fin 2) * 64 + 1 * k.val = k.val
      omega
    | ⟨1, _⟩ =>
      show win0_1.index t (1 : Fin 2) * 64 + 1 * (j 1).val = win0_2.index t (1 : Fin 2) * 64 + 1 * (j 1).val
      omega

/-- An index of the output array is in point t's block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v15).slice (win0_2.rect t)).set ↔ _
  rw [View.set_slice_whole, Rect.mem_set_unit]
  exact Iff.rfl

/-- Every index of the output array is in the block of the point its row falls in. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have hlt : (i 0).val / 10000 < cfg0.N := by rw [hN]; omega
  refine ⟨⟨(i 0).val / 10000, hlt⟩, flush0_2 _, ?_⟩
  rw [mem_block0]
  obtain ⟨e0, e1, e2, e3, e4, e5⟩ := blocks0 ⟨(i 0).val / 10000, hlt⟩
  have e4' : win0_2.index ⟨(i 0).val / 10000, hlt⟩ (0 : Fin 2) = (i 0).val / 10000 := e4
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4']; omega
  | ⟨1, _⟩ =>
    show win0_2.index ⟨(i 0).val / 10000, hlt⟩ (1 : Fin 2) * 64 ≤ (i 1).val
      ∧ (i 1).val < win0_2.index ⟨(i 0).val / 10000, hlt⟩ (1 : Fin 2) * 64 + 64
    rw [e5]; omega

/-- The output array after the launch is the product of the table and the weights as the launch finds them. -/
theorem final0 (c : Dev nD) :
    (dat0 (F := Ideal) V c).arrAt 2 cfg0.N
      = prod (a := 100000) (n := 64) (b := 64) (V c (Pipeline.arrRef spec0 0)) (V c (Pipeline.arrRef spec0 1)) :=
  (dat0 (F := Ideal) V c).arrAt_eq_of_cover 2 _ (fun t _ => flushed0 V c t) cover0

end Cert.Gcn.Kernel

end
-- ==== Proof.KRegion1.lean ====
/-
  What the first update kernel leaves in its output array.

  The kernel runs on ten blocks of 10000 rows. At block t it reads rows 10000 t … 10000 t + 9999 of the
  aggregated messages, of the projected table and of the column of dinv², and the whole bias row, and writes
  max ((agg + h * dinv²) + bias, 0) back to the same rows. An entry (r, e) of that step depends on entry (r, e) of the
  two tables, entry r of the column and entry e of the row only, so each block written back is that block of the
  step on the whole arrays, and the ten blocks cover the array.
-/
import proofs.«114300_j71605694759283_1_alg».proof.Proof.Gen.KernelIdeal.Frame
import proofs.«114300_j71605694759283_1_alg».proof.Proof.LibGcnCombine
import Idealize.ShloMosaic.Lib.Pipeline.Value

noncomputable section

namespace Cert.Gcn.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Layers

variable (V : (c : Dev nD) → (b : Ref sig .tc) → Buf (Elt Ideal) ((c : Thread nD τ).loc b))

/-- The body's value: the step on the four blocks. -/
theorem body1 (x0 x1 : Vec Ideal S10000x64 .f32) (x2 : Vec Ideal S10000x1 .f32) (x3 : Vec Ideal S1x64 .f32) :
    k1_pay1 (F := Ideal) x0 x1 x2 x3 = combine (a := 10000) (n := 64) x0 x1 x2 x3 :=
  kernel_combine (a := 10000) (n := 64) x0 x1 x2 x3 shapeCasts_S10000x64_S10000x64 shapeCasts_S10000x1_S10000x1
    shapeCasts_S1x64_S1x64 broadcasts_S10000x1_S10000x64 broadcasts_S1x64_S10000x64

/-- The block indices over the ten points: the row block of the two tables, of the column and of the output is
    the point, every column block is 0, the bias row's block is (0, 0). -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 2000000 in
/-- What point t writes back is block t of the step on the whole arrays. -/
theorem flushed1 (c : Dev nD) (t : Fin cfg1.N) :
    (dat1 (F := Ideal) V c).flushed 4 t
      = ((cfg1.win 4).blk t).view.read (Elt Ideal)
          (combine (a := 100000) (n := 64) (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  unfold out1_4
  rw [View.canon_unit_zero zero_offsets]
  simp only [View.ld_unit_zero (S := S10000x64) zero_offsets, View.ld_unit_zero (S := S10000x1) zero_offsets,
    View.ld_unit_zero (S := S1x64) zero_offsets]
  rw [body1]
  obtain ⟨e0, e1, e2, e3, e4, e5, e6, e7, e8, e9⟩ := blocks1 t
  funext j
  show combine (a := 10000) (n := 64) (iblk1 V c 0 t) (iblk1 V c 1 t) (iblk1 V c 2 t) (iblk1 V c 3 t) j
    = combine (a := 100000) (n := 64) (V c (Pipeline.arrRef spec1 0)) (V c (Pipeline.arrRef spec1 1))
        (V c (Pipeline.arrRef spec1 2)) (V c (Pipeline.arrRef spec1 3)) (((cfg1.win 4).blk t).view.emb j)
  refine combine_congr _ _ _ _ _ _ _ _ _ _ ?_ ?_ ?_ ?_
  · show V c (Pipeline.arrRef spec1 0) (((cfg1.win 0).blk t).view.emb j)
      = V c (Pipeline.arrRef spec1 0) (((cfg1.win 4).blk t).view.emb j)
    refine congrArg _ (funext fun a => Fin.ext ?_)
    match a with
    | ⟨0, _⟩ =>
      show win1_0.index t (0 : Fin 2) * 10000 + 1 * (j 0).val = win1_4.index t (0 : Fin 2) * 10000 + 1 * (j 0).val
      omega
    | ⟨1, _⟩ =>
      show win1_0.index t (1 : Fin 2) * 64 + 1 * (j 1).val = win1_4.index t (1 : Fin 2) * 64 + 1 * (j 1).val
      omega
  · show V c (Pipeline.arrRef spec1 1) (((cfg1.win 1).blk t).view.emb j)
      = V c (Pipeline.arrRef spec1 1) (((cfg1.win 4).blk t).view.emb j)
    refine congrArg _ (funext fun a => Fin.ext ?_)
    match a with
    | ⟨0, _⟩ =>
      show win1_1.index t (0 : Fin 2) * 10000 + 1 * (j 0).val = win1_4.index t (0 : Fin 2) * 10000 + 1 * (j 0).val
      omega
    | ⟨1, _⟩ =>
      show win1_1.index t (1 : Fin 2) * 64 + 1 * (j 1).val = win1_4.index t (1 : Fin 2) * 64 + 1 * (j 1).val
      omega
  · show V c (Pipeline.arrRef spec1 2) (((cfg1.win 2).blk t).view.emb (ix2 (j 0) (0 : Fin 1)))
      = V c (Pipeline.arrRef spec1 2) (ix2 (((cfg1.win 4).blk t).view.emb j 0) (0 : Fin 1))
    refine congrArg _ (funext fun a => Fin.ext ?_)
    match a with
    | ⟨0, _⟩ =>
      show win1_2.index t (0 : Fin 2) * 10000 + 1 * (j 0).val = win1_4.index t (0 : Fin 2) * 10000 + 1 * (j 0).val
      omega
    | ⟨1, _⟩ =>
      show win1_2.index t (1 : Fin 2) * 1 + 1 * 0 = 0
      omega
  · show V c (Pipeline.arrRef spec1 3) (((cfg1.win 3).blk t).view.emb (ix2 (0 : Fin 1) (j 1)))
      = V c (Pipeline.arrRef spec1 3) (ix2 (0 : Fin 1) (((cfg1.win 4).blk t).view.emb j 1))
    refine congrArg _ (funext fun a => Fin.ext ?_)
    match a with
    | ⟨0, _⟩ =>
      show win1_3.index t (0 : Fin 2) * 1 + 1 * 0 = 0
      omega
    | ⟨1, _⟩ =>
      show win1_3.index t (1 : Fin 2) * 64 + 1 * (j 1).val = win1_4.index t (1 : Fin 2) * 64 + 1 * (j 1).val
      omega

/-- An index of the output array is in point t's block iff each coordinate is in the block's range on its axis. -/
theorem mem_block1 (t : Fin cfg1.N) (i : S100000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v44).slice (win1_4.rect t)).set ↔ _
  rw [View.set_slice_whole, Rect.mem_set_unit]
  exact Iff.rfl

/-- Every index of the output array is in the block of the point its row falls in. -/
theorem cover1 (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hN : cfg1.N = 10 := N_1
  have hlt : (i 0).val / 10000 < cfg1.N := by rw [hN]; omega
  refine ⟨⟨(i 0).val / 10000, hlt⟩, flush1_4 _, ?_⟩
  rw [mem_block1]
  obtain ⟨e0, e1, e2, e3, e4, e5, e6, e7, e8, e9⟩ := blocks1 ⟨(i 0).val / 10000, hlt⟩
  have e8' : win1_4.index ⟨(i 0).val / 10000, hlt⟩ (0 : Fin 2) = (i 0).val / 10000 := e8
  intro a
  match a with
  | ⟨0, _⟩ =>
    show win1_4.index ⟨(i 0).val / 10000, hlt⟩ (0 : Fin 2) * 10000 ≤ (i 0).val
      ∧ (i 0).val < win1_4.index ⟨(i 0).val / 10000, hlt⟩ (0 : Fin 2) * 10000 + 10000
    rw [e8']; omega
  | ⟨1, _⟩ =>
    show win1_4.index ⟨(i 0).val / 10000, hlt⟩ (1 : Fin 2) * 64 ≤ (i 1).val
      ∧ (i 1).val < win1_4.index ⟨(i 0).val / 10000, hlt⟩ (1 : Fin 2) * 64 + 64
    rw [e9]; omega

/-- The output array after the launch is the step on the four arrays as the launch finds them. -/
theorem final1 (c : Dev nD) :
    (dat1 (F := Ideal) V c).arrAt 4 cfg1.N
      = combine (a := 100000) (n := 64) (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => flushed1 V c t) cover1

end Cert.Gcn.Kernel

end
-- ==== Proof.KRegion2.lean ====
/-
  What the second projection kernel leaves in its output array.

  As the first: ten blocks of 10000 rows, each multiplied by the whole 64 x 64 weight matrix of the second layer
  and written back to the same rows; an entry of a product depends on one row of the table and one column of the
  weights, the blocks written back are blocks of the whole product, and they cover the array.
-/
import proofs.«114300_j71605694759283_1_alg».proof.Proof.Gen.KernelIdeal.Frame
import proofs.«114300_j71605694759283_1_alg».proof.Proof.LibGcnCombine
import Idealize.ShloMosaic.Lib.Pipeline.Value

noncomputable section

namespace Cert.Gcn.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Layers

variable (V : (c : Dev nD) → (b : Ref sig .tc) → Buf (Elt Ideal) ((c : Thread nD τ).loc b))

/-- The body's value: the product of the row block (cast to its own shape) with the weights. -/
theorem body2 (x0 : Vec Ideal S10000x64 .f32) (x1 : Vec Ideal S64x64 .f32) :
    k2_pay1 (F := Ideal) x0 x1 = prod (a := 10000) (n := 64) (b := 64) x0 x1 := by
  unfold k2_pay1
  rw [shapeCast_self]
  exact matmul_eq_prod (a := 10000) (n := 64) (b := 64) dot_S10000x64_S64x64_S10000x64_1_0_0_1_n_n.wf
    dot_S10000x64_S64x64_S10000x64_1_0_0_1_n_n rfl x0 x1

/-- The block indices over the ten points: the table's and the output's row block is the point, every column
    block is 0, the weights' block is (0, 0). -/
theorem blocks2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the whole arrays. -/
theorem flushed2 (c : Dev nD) (t : Fin cfg2.N) :
    (dat2 (F := Ideal) V c).flushed 2 t
      = ((cfg2.win 2).blk t).view.read (Elt Ideal)
          (prod (a := 100000) (n := 64) (b := 64) (V c (Pipeline.arrRef spec2 0)) (V c (Pipeline.arrRef spec2 1))) := by
  show (cfg2.win 2).cut (grid2.coords t) ((dat2 V c).after 2 t) = _
  rw [after2_2]
  unfold out2_2
  rw [View.canon_unit_zero zero_offsets]
  simp only [View.ld_unit_zero (S := S10000x64) zero_offsets, View.ld_unit_zero (S := S64x64) zero_offsets]
  rw [body2]
  obtain ⟨e0, e1, e2, e3, e4, e5⟩ := blocks2 t
  funext j
  show prod (a := 10000) (n := 64) (b := 64) (iblk2 V c 0 t) (iblk2 V c 1 t) j
    = prod (a := 100000) (n := 64) (b := 64) (V c (Pipeline.arrRef spec2 0)) (V c (Pipeline.arrRef spec2 1)) (((cfg2.win 2).blk t).view.emb j)
  refine prod_congr _ _ _ _ _ _ (fun k => ?_) (fun k => ?_)
  · show V c (Pipeline.arrRef spec2 0) (((cfg2.win 0).blk t).view.emb (ix2 (j 0) k))
      = V c (Pipeline.arrRef spec2 0) (ix2 (((cfg2.win 2).blk t).view.emb j 0) k)
    refine congrArg _ (funext fun a => Fin.ext ?_)
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * k.val = k.val
      omega
  · show V c (Pipeline.arrRef spec2 1) (((cfg2.win 1).blk t).view.emb (ix2 k (j 1)))
      = V c (Pipeline.arrRef spec2 1) (ix2 k (((cfg2.win 2).blk t).view.emb j 1))
    refine congrArg _ (funext fun a => Fin.ext ?_)
    match a with
    | ⟨0, _⟩ =>
      show win2_1.index t (0 : Fin 2) * 64 + 1 * k.val = k.val
      omega
    | ⟨1, _⟩ =>
      show win2_1.index t (1 : Fin 2) * 64 + 1 * (j 1).val = win2_2.index t (1 : Fin 2) * 64 + 1 * (j 1).val
      omega

/-- An index of the output array is in point t's block iff each coordinate is in the block's range on its axis. -/
theorem mem_block2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v45).slice (win2_2.rect t)).set ↔ _
  rw [View.set_slice_whole, Rect.mem_set_unit]
  exact Iff.rfl

/-- Every index of the output array is in the block of the point its row falls in. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  have hlt : (i 0).val / 10000 < cfg2.N := by rw [hN]; omega
  refine ⟨⟨(i 0).val / 10000, hlt⟩, flush2_2 _, ?_⟩
  rw [mem_block2]
  obtain ⟨e0, e1, e2, e3, e4, e5⟩ := blocks2 ⟨(i 0).val / 10000, hlt⟩
  have e4' : win2_2.index ⟨(i 0).val / 10000, hlt⟩ (0 : Fin 2) = (i 0).val / 10000 := e4
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e4']; omega
  | ⟨1, _⟩ =>
    show win2_2.index ⟨(i 0).val / 10000, hlt⟩ (1 : Fin 2) * 64 ≤ (i 1).val
      ∧ (i 1).val < win2_2.index ⟨(i 0).val / 10000, hlt⟩ (1 : Fin 2) * 64 + 64
    rw [e5]; omega

/-- The output array after the launch is the product of the table and the weights as the launch finds them. -/
theorem final2 (c : Dev nD) :
    (dat2 (F := Ideal) V c).arrAt 2 cfg2.N
      = prod (a := 100000) (n := 64) (b := 64) (V c (Pipeline.arrRef spec2 0)) (V c (Pipeline.arrRef spec2 1)) :=
  (dat2 (F := Ideal) V c).arrAt_eq_of_cover 2 _ (fun t _ => flushed2 V c t) cover2

end Cert.Gcn.Kernel

end
-- ==== Proof.KRegion3.lean ====
/-
  What the second update kernel leaves in its output array.

  As the first update: ten blocks of 10000 rows; at block t the rows 10000 t … 10000 t + 9999 of the second layer's
  aggregated messages, of its projected table and of the column of dinv², with the whole second bias row, give
  max ((agg + h * dinv²) + bias, 0) on the same rows. An entry of the step depends on that entry of the two tables, that
  row's entry of the column and that column's entry of the row, the blocks written back are blocks of the step on
  the whole arrays, and they cover the array.
-/
import proofs.«114300_j71605694759283_1_alg».proof.Proof.Gen.KernelIdeal.Frame
import proofs.«114300_j71605694759283_1_alg».proof.Proof.LibGcnCombine
import Idealize.ShloMosaic.Lib.Pipeline.Value

noncomputable section

namespace Cert.Gcn.Kernel

open Cert.KernelIdeal Cert.KernelIdeal.Gen Idealize.ShloMosaic Idealize.ShloMosaic.TcCoe Idealize.SL.Sem
open Idealize.ShloMosaic.Pipeline (Dat)
open Idealize.ShloMosaic.ValueIdx Cert.Layers

variable (V : (c : Dev nD) → (b : Ref sig .tc) → Buf (Elt Ideal) ((c : Thread nD τ).loc b))

/-- The body's value: the step on the four blocks. -/
theorem body3 (x0 x1 : Vec Ideal S10000x64 .f32) (x2 : Vec Ideal S10000x1 .f32) (x3 : Vec Ideal S1x64 .f32) :
    k3_pay1 (F := Ideal) x0 x1 x2 x3 = combine (a := 10000) (n := 64) x0 x1 x2 x3 :=
  kernel_combine (a := 10000) (n := 64) x0 x1 x2 x3 shapeCasts_S10000x64_S10000x64 shapeCasts_S10000x1_S10000x1
    shapeCasts_S1x64_S1x64 broadcasts_S10000x1_S10000x64 broadcasts_S1x64_S10000x64

/-- The block indices over the ten points: the row block of the two tables, of the column and of the output is
    the point, every column block is 0, the bias row's block is (0, 0). -/
theorem blocks3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 2000000 in
/-- What point t writes back is block t of the step on the whole arrays. -/
theorem flushed3 (c : Dev nD) (t : Fin cfg3.N) :
    (dat3 (F := Ideal) V c).flushed 4 t
      = ((cfg3.win 4).blk t).view.read (Elt Ideal)
          (combine (a := 100000) (n := 64) (V c (Pipeline.arrRef spec3 0)) (V c (Pipeline.arrRef spec3 1))
            (V c (Pipeline.arrRef spec3 2)) (V c (Pipeline.arrRef spec3 3))) := by
  show (cfg3.win 4).cut (grid3.coords t) ((dat3 V c).after 4 t) = _
  rw [after3_4]
  unfold out3_4
  rw [View.canon_unit_zero zero_offsets]
  simp only [View.ld_unit_zero (S := S10000x64) zero_offsets, View.ld_unit_zero (S := S10000x1) zero_offsets,
    View.ld_unit_zero (S := S1x64) zero_offsets]
  rw [body3]
  obtain ⟨e0, e1, e2, e3, e4, e5, e6, e7, e8, e9⟩ := blocks3 t
  funext j
  show combine (a := 10000) (n := 64) (iblk3 V c 0 t) (iblk3 V c 1 t) (iblk3 V c 2 t) (iblk3 V c 3 t) j
    = combine (a := 100000) (n := 64) (V c (Pipeline.arrRef spec3 0)) (V c (Pipeline.arrRef spec3 1))
        (V c (Pipeline.arrRef spec3 2)) (V c (Pipeline.arrRef spec3 3)) (((cfg3.win 4).blk t).view.emb j)
  refine combine_congr _ _ _ _ _ _ _ _ _ _ ?_ ?_ ?_ ?_
  · show V c (Pipeline.arrRef spec3 0) (((cfg3.win 0).blk t).view.emb j)
      = V c (Pipeline.arrRef spec3 0) (((cfg3.win 4).blk t).view.emb j)
    refine congrArg _ (funext fun a => Fin.ext ?_)
    match a with
    | ⟨0, _⟩ =>
      show win3_0.index t (0 : Fin 2) * 10000 + 1 * (j 0).val = win3_4.index t (0 : Fin 2) * 10000 + 1 * (j 0).val
      omega
    | ⟨1, _⟩ =>
      show win3_0.index t (1 : Fin 2) * 64 + 1 * (j 1).val = win3_4.index t (1 : Fin 2) * 64 + 1 * (j 1).val
      omega
  · show V c (Pipeline.arrRef spec3 1) (((cfg3.win 1).blk t).view.emb j)
      = V c (Pipeline.arrRef spec3 1) (((cfg3.win 4).blk t).view.emb j)
    refine congrArg _ (funext fun a => Fin.ext ?_)
    match a with
    | ⟨0, _⟩ =>
      show win3_1.index t (0 : Fin 2) * 10000 + 1 * (j 0).val = win3_4.index t (0 : Fin 2) * 10000 + 1 * (j 0).val
      omega
    | ⟨1, _⟩ =>
      show win3_1.index t (1 : Fin 2) * 64 + 1 * (j 1).val = win3_4.index t (1 : Fin 2) * 64 + 1 * (j 1).val
      omega
  · show V c (Pipeline.arrRef spec3 2) (((cfg3.win 2).blk t).view.emb (ix2 (j 0) (0 : Fin 1)))
      = V c (Pipeline.arrRef spec3 2) (ix2 (((cfg3.win 4).blk t).view.emb j 0) (0 : Fin 1))
    refine congrArg _ (funext fun a => Fin.ext ?_)
    match a with
    | ⟨0, _⟩ =>
      show win3_2.index t (0 : Fin 2) * 10000 + 1 * (j 0).val = win3_4.index t (0 : Fin 2) * 10000 + 1 * (j 0).val
      omega
    | ⟨1, _⟩ =>
      show win3_2.index t (1 : Fin 2) * 1 + 1 * 0 = 0
      omega
  · show V c (Pipeline.arrRef spec3 3) (((cfg3.win 3).blk t).view.emb (ix2 (0 : Fin 1) (j 1)))
      = V c (Pipeline.arrRef spec3 3) (ix2 (0 : Fin 1) (((cfg3.win 4).blk t).view.emb j 1))
    refine congrArg _ (funext fun a => Fin.ext ?_)
    match a with
    | ⟨0, _⟩ =>
      show win3_3.index t (0 : Fin 2) * 1 + 1 * 0 = 0
      omega
    | ⟨1, _⟩ =>
      show win3_3.index t (1 : Fin 2) * 64 + 1 * (j 1).val = win3_4.index t (1 : Fin 2) * 64 + 1 * (j 1).val
      omega

/-- An index of the output array is in point t's block iff each coordinate is in the block's range on its axis. -/
theorem mem_block3 (t : Fin cfg3.N) (i : S100000x64.Idx) :
    i ∈ ((cfg3.win 4).blk t).view.set ↔ ∀ a : Fin 2, win3_4.index t a * S10000x64.size a ≤ (i a).val ∧ (i a).val < win3_4.index t a * S10000x64.size a + S10000x64.size a := by
  show i ∈ ((View.whole main_v74).slice (win3_4.rect t)).set ↔ _
  rw [View.set_slice_whole, Rect.mem_set_unit]
  exact Iff.rfl

/-- Every index of the output array is in the block of the point its row falls in. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 10 := N_3
  have hlt : (i 0).val / 10000 < cfg3.N := by rw [hN]; omega
  refine ⟨⟨(i 0).val / 10000, hlt⟩, flush3_4 _, ?_⟩
  rw [mem_block3]
  obtain ⟨e0, e1, e2, e3, e4, e5, e6, e7, e8, e9⟩ := blocks3 ⟨(i 0).val / 10000, hlt⟩
  have e8' : win3_4.index ⟨(i 0).val / 10000, hlt⟩ (0 : Fin 2) = (i 0).val / 10000 := e8
  intro a
  match a with
  | ⟨0, _⟩ =>
    show win3_4.index ⟨(i 0).val / 10000, hlt⟩ (0 : Fin 2) * 10000 ≤ (i 0).val
      ∧ (i 0).val < win3_4.index ⟨(i 0).val / 10000, hlt⟩ (0 : Fin 2) * 10000 + 10000
    rw [e8']; omega
  | ⟨1, _⟩ =>
    show win3_4.index ⟨(i 0).val / 10000, hlt⟩ (1 : Fin 2) * 64 ≤ (i 1).val
      ∧ (i 1).val < win3_4.index ⟨(i 0).val / 10000, hlt⟩ (1 : Fin 2) * 64 + 64
    rw [e9]; omega

/-- The output array after the launch is the step on the four arrays as the launch finds them. -/
theorem final3 (c : Dev nD) :
    (dat3 (F := Ideal) V c).arrAt 4 cfg3.N
      = combine (a := 100000) (n := 64) (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => flushed3 V c t) cover3

end Cert.Gcn.Kernel

end
-- ==== Proof.KChain.lean ====
/-
  The idealized kernel's result, boundary by boundary.

  The buffer contents at each boundary of @main, read at the buffers the next segment needs:
    * after the first stretch: the sources, the destinations, dinv, the column of dinv², the two bias rows;
    * after the first projection: its output array is the product of the features and the first weights;
    * after the second stretch: the messages aggregated from that product;
    * after the first update: its output array is the first layer;
    * after the second projection: the product of the first layer and the second weights;
    * after the third stretch: the messages aggregated from that product;
    * after the second update: the second layer, which is the result.
  A launch leaves every buffer none of its windows is on, and every array an input window is on, as it found them;
  a stretch leaves every buffer it does not write as it found it.
-/
import proofs.«114300_j71605694759283_1_alg».proof.Proof.KHost
import proofs.«114300_j71605694759283_1_alg».proof.Proof.KRegion0
import proofs.«114300_j71605694759283_1_alg».proof.Proof.KRegion1
import proofs.«114300_j71605694759283_1_alg».proof.Proof.KRegion2
import proofs.«114300_j71605694759283_1_alg».proof.Proof.KRegion3

noncomputable section

namespace Cert.Gcn.Kernel

open Cert.KernelIdeal Cert.KernelIdeal.Gen Idealize.ShloMosaic Idealize.ShloMosaic.TcCoe Idealize.SL.Sem
open Idealize.ShloMosaic.Pipeline (Dat)
open Cert.Layers

variable (m : (ℓ : Loc nD τ sig) → Buf (Elt Ideal) ℓ) (ρ : Dev nD → PrngReg) (c : Dev nD)

/-- The arguments' launch contents on core c. -/
abbrev aX : Tab := m ((c : Thread nD τ).loc main_arg0)
abbrev aE : Edges := m ((c : Thread nD τ).loc main_arg1)
abbrev aW1 : Weights := m ((c : Thread nD τ).loc main_arg2)
abbrev aB1 : Bias := m ((c : Thread nD τ).loc main_arg3)
abbrev aW2 : Weights := m ((c : Thread nD τ).loc main_arg4)
abbrev aB2 : Bias := m ((c : Thread nD τ).loc main_arg5)

/-! ## After the first stretch -/

theorem W1_v1 : W1 m ρ c (Proc.devRef .tc main_v1) = src (aE m c) := (stage0 (W0 m ρ c)).1
theorem W1_v3 : W1 m ρ c (Proc.devRef .tc main_v3) = dst (aE m c) := (stage0 (W0 m ρ c)).2.1
theorem W1_v10 : W1 m ρ c (Proc.devRef .tc main_v10) = dinv (dst (aE m c)) := (stage0 (W0 m ρ c)).2.2.1
theorem W1_v12 : W1 m ρ c (Proc.devRef .tc main_v12) = scaleCol (aE m c) := (stage0 (W0 m ρ c)).2.2.2.1
theorem W1_v13 : W1 m ρ c (Proc.devRef .tc main_v13) = biasRow (aB1 m c) := (stage0 (W0 m ρ c)).2.2.2.2.1
theorem W1_v14 : W1 m ρ c (Proc.devRef .tc main_v14) = biasRow (aB2 m c) := (stage0 (W0 m ρ c)).2.2.2.2.2.1
theorem W1_arg0 : W1 m ρ c (Proc.devRef .tc main_arg0) = (aX m c) := (stage0 (W0 m ρ c)).2.2.2.2.2.2.1
theorem W1_arg2 : W1 m ρ c (Proc.devRef .tc main_arg2) = (aW1 m c) := (stage0 (W0 m ρ c)).2.2.2.2.2.2.2.1
theorem W1_arg4 : W1 m ρ c (Proc.devRef .tc main_arg4) = (aW2 m c) := (stage0 (W0 m ρ c)).2.2.2.2.2.2.2.2

/-! ## After the first projection -/

theorem W2_v15 : W2 m ρ c (Proc.devRef .tc main_v15) = prod (a := 100000) (n := 64) (b := 64) (aX m c) (aW1 m c) :=
  (W2_arr m ρ c 2).trans ((final0 (V1 m ρ) c).trans
    (congrArg₂ (prod (a := 100000) (n := 64) (b := 64)) (W1_arg0 m ρ c) (W1_arg2 m ρ c)))
theorem W2_v1 : W2 m ρ c (Proc.devRef .tc main_v1) = src (aE m c) := (W2_of_ne m ρ c main_v1 (by decide)).trans (W1_v1 m ρ c)
theorem W2_v3 : W2 m ρ c (Proc.devRef .tc main_v3) = dst (aE m c) := (W2_of_ne m ρ c main_v3 (by decide)).trans (W1_v3 m ρ c)
theorem W2_v10 : W2 m ρ c (Proc.devRef .tc main_v10) = dinv (dst (aE m c)) := (W2_of_ne m ρ c main_v10 (by decide)).trans (W1_v10 m ρ c)
theorem W2_v12 : W2 m ρ c (Proc.devRef .tc main_v12) = scaleCol (aE m c) := (W2_of_ne m ρ c main_v12 (by decide)).trans (W1_v12 m ρ c)
theorem W2_v13 : W2 m ρ c (Proc.devRef .tc main_v13) = biasRow (aB1 m c) := (W2_of_ne m ρ c main_v13 (by decide)).trans (W1_v13 m ρ c)
theorem W2_v14 : W2 m ρ c (Proc.devRef .tc main_v14) = biasRow (aB2 m c) := (W2_of_ne m ρ c main_v14 (by decide)).trans (W1_v14 m ρ c)
theorem W2_arg4 : W2 m ρ c (Proc.devRef .tc main_arg4) = (aW2 m c) := (W2_of_ne m ρ c main_arg4 (by decide)).trans (W1_arg4 m ρ c)

/-! ## After the second stretch -/

theorem W3_v43 : W3 m ρ c (Proc.devRef .tc main_v43)
    = agg (prod (a := 100000) (n := 64) (b := 64) (aX m c) (aW1 m c)) (dinv (dst (aE m c))) (src (aE m c)) (dst (aE m c)) :=
  (stage1 (W2 m ρ c)).1.trans (by rw [W2_v15 m ρ c, W2_v10 m ρ c, W2_v1 m ρ c, W2_v3 m ρ c])
theorem W3_v15 : W3 m ρ c (Proc.devRef .tc main_v15) = prod (a := 100000) (n := 64) (b := 64) (aX m c) (aW1 m c) :=
  (stage1 (W2 m ρ c)).2.1.trans (W2_v15 m ρ c)
theorem W3_v12 : W3 m ρ c (Proc.devRef .tc main_v12) = scaleCol (aE m c) := (stage1 (W2 m ρ c)).2.2.1.trans (W2_v12 m ρ c)
theorem W3_v13 : W3 m ρ c (Proc.devRef .tc main_v13) = biasRow (aB1 m c) := (stage1 (W2 m ρ c)).2.2.2.1.trans (W2_v13 m ρ c)
theorem W3_v14 : W3 m ρ c (Proc.devRef .tc main_v14) = biasRow (aB2 m c) := (stage1 (W2 m ρ c)).2.2.2.2.1.trans (W2_v14 m ρ c)
theorem W3_v1 : W3 m ρ c (Proc.devRef .tc main_v1) = src (aE m c) := (stage1 (W2 m ρ c)).2.2.2.2.2.1.trans (W2_v1 m ρ c)
theorem W3_v3 : W3 m ρ c (Proc.devRef .tc main_v3) = dst (aE m c) := (stage1 (W2 m ρ c)).2.2.2.2.2.2.1.trans (W2_v3 m ρ c)
theorem W3_v10 : W3 m ρ c (Proc.devRef .tc main_v10) = dinv (dst (aE m c)) := (stage1 (W2 m ρ c)).2.2.2.2.2.2.2.1.trans (W2_v10 m ρ c)
theorem W3_arg4 : W3 m ρ c (Proc.devRef .tc main_arg4) = (aW2 m c) := (stage1 (W2 m ρ c)).2.2.2.2.2.2.2.2.trans (W2_arg4 m ρ c)

/-! ## After the first update -/

/-- The first layer. -/
abbrev layer1 : Tab := layer (prod (a := 100000) (n := 64) (b := 64) (aX m c) (aW1 m c)) (aE m c) (biasRow (aB1 m c))

theorem W4_v44 : W4 m ρ c (Proc.devRef .tc main_v44) = layer1 m c :=
  (W4_arr m ρ c 4).trans ((final1 (V3 m ρ) c).trans (by
    show combine (a := 100000) (n := 64) (W3 m ρ c (Proc.devRef .tc main_v43)) (W3 m ρ c (Proc.devRef .tc main_v15))
        (W3 m ρ c (Proc.devRef .tc main_v12)) (W3 m ρ c (Proc.devRef .tc main_v13)) = _
    rw [W3_v43 m ρ c, W3_v15 m ρ c, W3_v12 m ρ c, W3_v13 m ρ c]
    rfl))
theorem W4_v12 : W4 m ρ c (Proc.devRef .tc main_v12) = scaleCol (aE m c) :=
  (W4_arr m ρ c 2).trans (((dat1 (V3 m ρ) c).arrAt_in 2 rfl _).trans ((A_eq1 (V3 m ρ) c 2).trans (W3_v12 m ρ c)))
theorem W4_v14 : W4 m ρ c (Proc.devRef .tc main_v14) = biasRow (aB2 m c) := (W4_of_ne m ρ c main_v14 (by decide)).trans (W3_v14 m ρ c)
theorem W4_v1 : W4 m ρ c (Proc.devRef .tc main_v1) = src (aE m c) := (W4_of_ne m ρ c main_v1 (by decide)).trans (W3_v1 m ρ c)
theorem W4_v3 : W4 m ρ c (Proc.devRef .tc main_v3) = dst (aE m c) := (W4_of_ne m ρ c main_v3 (by decide)).trans (W3_v3 m ρ c)
theorem W4_v10 : W4 m ρ c (Proc.devRef .tc main_v10) = dinv (dst (aE m c)) := (W4_of_ne m ρ c main_v10 (by decide)).trans (W3_v10 m ρ c)
theorem W4_arg4 : W4 m ρ c (Proc.devRef .tc main_arg4) = (aW2 m c) := (W4_of_ne m ρ c main_arg4 (by decide)).trans (W3_arg4 m ρ c)

/-! ## After the second projection -/

theorem W5_v45 : W5 m ρ c (Proc.devRef .tc main_v45) = prod (a := 100000) (n := 64) (b := 64) (layer1 m c) (aW2 m c) :=
  (W5_arr m ρ c 2).trans ((final2 (V4 m ρ) c).trans
    (congrArg₂ (prod (a := 100000) (n := 64) (b := 64)) (W4_v44 m ρ c) (W4_arg4 m ρ c)))
theorem W5_v12 : W5 m ρ c (Proc.devRef .tc main_v12) = scaleCol (aE m c) := (W5_of_ne m ρ c main_v12 (by decide)).trans (W4_v12 m ρ c)
theorem W5_v14 : W5 m ρ c (Proc.devRef .tc main_v14) = biasRow (aB2 m c) := (W5_of_ne m ρ c main_v14 (by decide)).trans (W4_v14 m ρ c)
theorem W5_v1 : W5 m ρ c (Proc.devRef .tc main_v1) = src (aE m c) := (W5_of_ne m ρ c main_v1 (by decide)).trans (W4_v1 m ρ c)
theorem W5_v3 : W5 m ρ c (Proc.devRef .tc main_v3) = dst (aE m c) := (W5_of_ne m ρ c main_v3 (by decide)).trans (W4_v3 m ρ c)
theorem W5_v10 : W5 m ρ c (Proc.devRef .tc main_v10) = dinv (dst (aE m c)) := (W5_of_ne m ρ c main_v10 (by decide)).trans (W4_v10 m ρ c)

/-! ## After the third stretch -/

theorem W6_v73 : W6 m ρ c (Proc.devRef .tc main_v73)
    = agg (prod (a := 100000) (n := 64) (b := 64) (layer1 m c) (aW2 m c)) (dinv (dst (aE m c))) (src (aE m c)) (dst (aE m c)) :=
  (stage3 (W5 m ρ c)).1.trans (by rw [W5_v45 m ρ c, W5_v10 m ρ c, W5_v1 m ρ c, W5_v3 m ρ c])
theorem W6_v45 : W6 m ρ c (Proc.devRef .tc main_v45) = prod (a := 100000) (n := 64) (b := 64) (layer1 m c) (aW2 m c) :=
  (stage3 (W5 m ρ c)).2.1.trans (W5_v45 m ρ c)
theorem W6_v12 : W6 m ρ c (Proc.devRef .tc main_v12) = scaleCol (aE m c) := (stage3 (W5 m ρ c)).2.2.1.trans (W5_v12 m ρ c)
theorem W6_v14 : W6 m ρ c (Proc.devRef .tc main_v14) = biasRow (aB2 m c) := (stage3 (W5 m ρ c)).2.2.2.trans (W5_v14 m ρ c)

/-! ## After the second update: the result -/

theorem W7_v74 : W7 m ρ c (Proc.devRef .tc main_v74) = out (aX m c) (aE m c) (aW1 m c) (aB1 m c) (aW2 m c) (aB2 m c) :=
  (W7_arr m ρ c 4).trans ((final3 (V6 m ρ) c).trans (by
    show combine (a := 100000) (n := 64) (W6 m ρ c (Proc.devRef .tc main_v73)) (W6 m ρ c (Proc.devRef .tc main_v45))
        (W6 m ρ c (Proc.devRef .tc main_v12)) (W6 m ρ c (Proc.devRef .tc main_v14)) = _
    rw [W6_v73 m ρ c, W6_v45 m ρ c, W6_v12 m ρ c, W6_v14 m ρ c]
    rfl))

end Cert.Gcn.Kernel

end
-- ==== Proof.lean ====
/-
  Two stacked graph-convolution layers on 100000 nodes with 64 features and 1600000 edges: the kernel program
  against its jnp reference, on the extended reals.

  Per layer both programs project the node features with a 64 x 64 weight matrix, gather the projected rows at the
  edges' sources, scale each by dinv(source) * dinv(destination), sum them into the destinations, add the node's own
  row times dinv², add the bias and take the maximum with zero; dinv is one over the square root of one plus the
  number of edges arriving at the node. The kernel program computes dinv once and runs the projection and the
  update as kernels over ten blocks of 10000 rows; the reference recomputes dinv per layer and uses whole-array
  operations. On the extended reals the two results are the same function of the arguments, entry by entry, with no
  law of arithmetic used: a block's product is that block of the whole product, a block's update is that block of
  the whole update, and the gather / scale / sum between them is the same sequence of operations on both sides.
  No finiteness of the inputs is needed.
-/
import proofs.«114300_j71605694759283_1_alg».proof.Defs
import proofs.«114300_j71605694759283_1_alg».proof.Proof.Gen.Kernel
import proofs.«114300_j71605694759283_1_alg».proof.Proof.Gen.Kernel.Frame
import proofs.«114300_j71605694759283_1_alg».proof.Proof.Gen.KernelIdeal
import proofs.«114300_j71605694759283_1_alg».proof.Proof.Gen.KernelIdeal.Frame
import proofs.«114300_j71605694759283_1_alg».proof.Proof.Gen.ReferenceIdeal
import proofs.«114300_j71605694759283_1_alg».proof.Proof.Gen.ReferenceIdeal.Run
import proofs.«114300_j71605694759283_1_alg».proof.Proof.Gen.Pre_finite_inputs
import proofs.«114300_j71605694759283_1_alg».proof.Proof.HostChain
import proofs.«114300_j71605694759283_1_alg».proof.Proof.KRun
import proofs.«114300_j71605694759283_1_alg».proof.Proof.KChain
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the two-layer function `Cert.Gcn.out` of the arguments in their result buffer. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Gcn.Kernel.W7_v74 m ρ c), (h c).2⟩)
      (Cert.Gcn.Kernel.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.Gcn.res_eq_refOut, Cert.Gcn.refOut_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
